-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 11
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S1x128, .f32⟩
  | .hbm, ⟨9, _⟩ => ⟨S1x128, .f32⟩
  | .hbm, ⟨10, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | .local _ .vmem, ⟨10, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v23 : BitVec 32 := Scalar.muli arg1 c400_i32
  let v24 : Index := Scalar.indexCast v23
  let c0_14 : Index := 0#32
  ![v24.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S128x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BBase.lean ====
/-
  What the three control cases of the graph-convolution body share: the branch conditions decided over the
  grid, where the output window is idle and where it is written back, the row offset of the band of the
  second scratch a point fills, and a band of rows written over an array.
-/
import proofs.«124348_g2817498546214_cont_9to1_1806_5_alg».proof.Proof.Gen.Kernel.Frame
import proofs.«124348_g2817498546214_cont_9to1_1806_5_alg».proof.Proof.Gen.Kernel.Skeleton
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

/-! ## The three branch conditions, in closed form over the grid -/

/-- The first branch (fill the first scratch with the first layer's linear map) is taken at the first point only. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem condFirst_iff : ∀ t : Fin cfg0.N, condFirst (grid0.coords t) ↔ t.val = 0 :=
  (by decide +kernel : ∀ t : Fin grid0.N, condFirst (grid0.coords t) ↔ t.val = 0)

/-- The second branch (one band of the second layer's input) is taken in the first pass: points 0 … 24. -/
abbrev condPass0 (i : grid0.Coords) : Prop := k0_cond2 i = 1#1
theorem condPass0_iff : ∀ t : Fin cfg0.N, condPass0 (grid0.coords t) ↔ t.val < 25 :=
  (by decide +kernel : ∀ t : Fin grid0.N, condPass0 (grid0.coords t) ↔ t.val < 25)

/-- The third branch (one block of the result) is taken in the second pass: points 25 … 49. -/
abbrev condPass1 (i : grid0.Coords) : Prop := k0_cond3 i = 1#1
theorem condPass1_iff : ∀ t : Fin cfg0.N, condPass1 (grid0.coords t) ↔ 25 ≤ t.val :=
  (by decide +kernel : ∀ t : Fin grid0.N, condPass1 (grid0.coords t) ↔ 25 ≤ t.val)

/-! ## The output window over the grid -/

/-- The output window is idle exactly in the first pass, -/
theorem idle6_iff : ∀ t : Fin cfg0.N, cfg0.idle 6 (grid0.coords t) = decide (t.val < 25) :=
  (by decide +kernel : ∀ t : Fin grid0.N, cfg0.idle 6 (grid0.coords t) = decide (t.val < 25))
/-- and written back exactly in the second: its block index is 0 throughout the first pass and at the second
    pass's first point, so nothing is written back before that point's body has stored the block. -/
theorem flush6_iff : ∀ t : Fin cfg0.N, (cfg0.win 6).flush t = decide (25 ≤ t.val) :=
  (by decide +kernel : ∀ t : Fin grid0.N, win0_6.flush t = decide (25 ≤ t.val))
/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- In the first pass point `t` fills rows `400 t … 400 t + 399` of the second scratch. -/
theorem bandOff : ∀ t : Fin cfg0.N, t.val < 25 → k0_off1 (grid0.coords t) = ![400 * t.val, 0] :=
  (by decide +kernel : ∀ t : Fin grid0.N, t.val < 25 → k0_off1 (grid0.coords t) = ![400 * t.val, 0])

/-! ## Whole-buffer loads and stores -/

theorem zeros2 : (![0, 0] : Fin 2 → ℕ) = fun _ => 0 := by
  funext a; fin_cases a <;> rfl

/-- One store through the whole buffer leaves its payload, whatever the buffer held. -/
theorem read_whole_store {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-! ## A band of rows written over an array -/

/-- The array `d` with the 400 rows from row `o` on replaced by the block `w`. -/
def putRows (o : ℕ) (d : Vec F S10000x128 .f32) (w : Vec F S400x128 .f32) : Vec F S10000x128 .f32 :=
  fun y => if h : o ≤ (y (0 : Fin 2)).val ∧ (y (0 : Fin 2)).val < o + 400 then
      w (Rect.unitLocal (s := S10000x128) (off := ![o, 0]) (size := S400x128.size) y (Rect.unit_rows_mem y rfl rfl h))
    else d y

/-- One store of 400 whole rows from row `o` on, over contents `d`, leaves `putRows o d w`. -/
theorem read_band_store {sg : RefSig} {κ : Kind} {sp : Space} (v : View sg κ sp S10000x128 .f32)
    (f : v.ty.Contents (Elt F)) (d : Vec F S10000x128 .f32) (hd : v.read (Elt F) f = d)
    {off : Fin 2 → ℕ} {o : ℕ} (inb : ∀ a : Fin 2, off a + S400x128.size a ≤ S10000x128.size a)
    (w : Vec F S400x128 .f32) (hoff : off = ![o, 0]) :
    v.read (Elt F) (v.writes (Elt F) f [(⟨Rect.unit (s := S10000x128) off S400x128.size inb, w⟩ : View.Piece (Elt F) S10000x128 .f32)])
      = putRows o d w := by
  funext y
  rw [View.read_writes_cons_rows v f inb w [] y hoff (show S400x128.size (0 : Fin 2) = 400 from rfl) rfl]
  unfold putRows
  split
  · rfl
  · rw [← hd]; rfl

end Cert.Kernel.Body

end
-- ==== Proof.BRunA.lean ====
/-
  The body at the first point: it fills the first scratch with the first layer's linear map `x · W1ᵀ + b1`,
  reads it back, and stores the first band of 400 rows of the second scratch; the output block is left as found.
-/
import proofs.«124348_g2817498546214_cont_9to1_1806_5_alg».proof.Proof.BBase

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- At the first point the body leaves every input and the output buffer as they were, the first scratch — whatever
    it held — at `x · W1ᵀ + b1`, and the second scratch with rows `o … o + 399` replaced by
    `max(A_blk · (x · W1ᵀ + b1), 0) · W2ᵀ + b2`. -/
theorem runFirst (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole)
    (hc0 : condFirst i) (hc1 : condPass0 i) (hc2 : ¬condPass1 i) (o : ℕ) (ho : k0_off1 i = ![o, 0])
    (x0 : Vec F S10000x128 .f32) (x1 : Vec F S400x10000 .f32) (x2 : Vec F S128x128 .f32) (x3 : Vec F S1x128 .f32) (x4 : Vec F S128x128 .f32) (x5 : Vec F S1x128 .f32) (d6 : Vec F S400x128 .f32) (ds0 xs1 : Vec F S10000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare ds0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare (k0_pay1 x0 x2 x3) ∗ owns (c : Thread nD τ) arg10 fullShare (putRows o xs1 (k0_pay2 x1 (k0_pay1 x0 x2 x3) x4 x5))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, H6, ⟨%fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]; · iexact H6
  isplitl [HS0]
  · iexists _; isplitr; swap; · iexact HS0
    ipureintro
    sl_unfold_run_names
    rw [read_whole_store _ _ zeros2]
    simp only [View.readAt_eq_ld, harg2.read_unread, harg3.read_unread, harg4.read_unread, harg5.read_unread, harg6.read_unread, harg7.read_unread, harg9.read_unread, harg10.read_unread, View.ld_unit_zero (S := S10000x128) zeros2, View.ld_unit_zero (S := S400x10000) zeros2, View.ld_unit_zero (S := S128x128) zeros2, View.ld_unit_zero (S := S1x128) zeros2, View.ld_unit_zero (S := S400x128) zeros2]
  iexists _; isplitr; swap; · iexact HS1
  ipureintro
  sl_unfold_run_names
  rw [read_band_store _ _ xs1 (harg10.read_unread _) _ _ ho]
  rw [View.readCov_unit_zero (S := S10000x128) arg9.view zeros2]
  simp only [View.readAt_eq_ld, harg2.read_unread, harg3.read_unread, harg4.read_unread, harg5.read_unread, harg6.read_unread, harg7.read_unread, harg9.read_unread, harg10.read_unread, View.ld_unit_zero (S := S10000x128) zeros2, View.ld_unit_zero (S := S400x10000) zeros2, View.ld_unit_zero (S := S128x128) zeros2, View.ld_unit_zero (S := S1x128) zeros2, View.ld_unit_zero (S := S400x128) zeros2]

end Cert.Kernel.Body

end
-- ==== Proof.BRunB.lean ====
/-
  The body at a first-pass point after the first: it loads its block of the adjacency rows, the whole first
  scratch, the second layer's weights and bias, and stores one band of 400 rows of the second scratch; the
  output block and everything else are left as found.
-/
import proofs.«124348_g2817498546214_cont_9to1_1806_5_alg».proof.Proof.BBase

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- At a first-pass point other than the first, the body leaves every input, the output buffer and the first
    scratch as they were, and the second scratch with rows `o … o + 399` replaced by
    `max(A_blk · s0, 0) · W2ᵀ + b2`, `s0` the first scratch's contents and `o` the band's row offset. -/
theorem runPass0 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole)
    (hc0 : ¬condFirst i) (hc1 : condPass0 i) (hc2 : ¬condPass1 i) (o : ℕ) (ho : k0_off1 i = ![o, 0])
    (x0 : Vec F S10000x128 .f32) (x1 : Vec F S400x10000 .f32) (x2 : Vec F S128x128 .f32) (x3 : Vec F S1x128 .f32) (x4 : Vec F S128x128 .f32) (x5 : Vec F S1x128 .f32) (d6 : Vec F S400x128 .f32) (xs0 xs1 : Vec F S10000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ owns (c : Thread nD τ) arg10 fullShare (putRows o xs1 (k0_pay2 x1 xs0 x4 x5))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, H6, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]; · iexact H6
  isplitl [HS0]
  · iexists _; isplitr; · ipureintro; exact harg9.read_unread _
    iexact HS0
  iexists _; isplitr; swap; · iexact HS1
  ipureintro
  rw [read_band_store _ _ xs1 (harg10.read_unread _) _ _ ho]
  simp only [View.readAt_eq_ld, harg2.read_unread, harg3.read_unread, harg4.read_unread, harg5.read_unread, harg6.read_unread, harg7.read_unread, harg9.read_unread, harg10.read_unread, View.ld_unit_zero (S := S10000x128) zeros2, View.ld_unit_zero (S := S400x10000) zeros2, View.ld_unit_zero (S := S128x128) zeros2, View.ld_unit_zero (S := S1x128) zeros2, View.ld_unit_zero (S := S400x128) zeros2]

end Cert.Kernel.Body

end
-- ==== Proof.BRunC.lean ====
/-
  The body at a point of the second pass: it loads its block of the adjacency rows and the whole second
  scratch, multiplies them, and stores the product as the output block; nothing else is touched.
-/
import proofs.«124348_g2817498546214_cont_9to1_1806_5_alg».proof.Proof.BBase

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- At a second-pass point, on whole staging memrefs at given contents, the body leaves every input and both
    scratch buffers as they were and the output block at the product of the adjacency block with the second
    scratch's contents. -/
theorem runPass1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole)
    (hc0 : ¬condFirst i) (hc1 : ¬condPass0 i) (hc2 : condPass1 i)
    (x0 : Vec F S10000x128 .f32) (x1 : Vec F S400x10000 .f32) (x2 : Vec F S128x128 .f32) (x3 : Vec F S1x128 .f32) (x4 : Vec F S128x128 .f32) (x5 : Vec F S1x128 .f32) (d6 : Vec F S400x128 .f32) (xs0 xs1 : Vec F S10000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 xs1) ∗ owns (c : Thread nD τ) arg9 fullShare xs0 ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_whole_store _ _ zeros2]
    simp only [View.readAt_eq_ld, harg2.read_unread, harg3.read_unread, harg4.read_unread, harg5.read_unread, harg6.read_unread, harg7.read_unread, harg9.read_unread, harg10.read_unread, View.ld_unit_zero (S := S10000x128) zeros2, View.ld_unit_zero (S := S400x10000) zeros2, View.ld_unit_zero (S := S128x128) zeros2, View.ld_unit_zero (S := S1x128) zeros2, View.ld_unit_zero (S := S400x128) zeros2]
  isplitl [HS0]
  · iexists _; isplitr; · ipureintro; exact harg9.read_unread _
    iexact HS0
  iexists _; isplitr; · ipureintro; exact harg10.read_unread _
  iexact HS1

end Cert.Kernel.Body

end
-- ==== Proof.BFrame.lean ====
/-
  The proof data of the graph-convolution kernel's one pipeline, and its frame run.

  The grid is two passes over the 25 row blocks of the adjacency matrix A. The first scratch holds
  h1 = x · W1ᵀ + b1 from the first point on. In the first pass point t stores rows 400 t … 400 t + 399 of
  h2 = max(A · h1, 0) · W2ᵀ + b2 into the second scratch, so before point n the rows below 400 n of that
  scratch are h2's, whatever the rows above hold; from the second pass on the whole scratch is h2. In the
  second pass point 25 + i stores block i of A · h2 into the output window, which is written back at exactly
  those points; in the first pass the window is idle and handed back as found.
-/
import proofs.«124348_g2817498546214_cont_9to1_1806_5_alg».proof.Proof.BRunA
import proofs.«124348_g2817498546214_cont_9to1_1806_5_alg».proof.Proof.BRunB
import proofs.«124348_g2817498546214_cont_9to1_1806_5_alg».proof.Proof.BRunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, the scratch buffers, the class invariant -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
abbrev scM0 : Memref sig .tc .vmem S10000x128 .f32 := Memref.whole cc0_scratch0
abbrev scM1 : Memref sig .tc .vmem S10000x128 .f32 := Memref.whole cc0_scratch1

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

theorem N50 : cfg0.N = 50 := N_0

/-- The first point. -/
abbrev p0 : Fin cfg0.N := ⟨0, by rw [N50]; omega⟩

/-! ## What the two scratch buffers hold -/

/-- h1 = x · W1ᵀ + b1: the body's first payload of the whole-array blocks of x, W1ᵀ and b1 (as the first point finds them). -/
def lin1 (c : Dev nD) : Vec F S10000x128 .f32 := k0_pay1 (iblk m c 0 p0) (iblk m c 2 p0) (iblk m c 3 p0)

/-- Rows 400 t … 400 t + 399 of h2: the body's second payload of the adjacency block at point `t` and h1. -/
def band (c : Dev nD) (t : Fin cfg0.N) : Vec F S400x128 .f32 := k0_pay2 (iblk m c 1 t) (lin1 m c) (iblk m c 4 t) (iblk m c 5 t)

/-- The first `n` bands written one after the other over arbitrary contents. -/
def fill (c : Dev nD) : (n : ℕ) → n ≤ 25 → Vec F S10000x128 .f32
  | 0, _ => fun _ => Classical.choice (Elt.nonempty F EltTy.f32)
  | n + 1, h => putRows (400 * n) (fill c n (Nat.le_of_succ_le h)) (band m c ⟨n, by rw [N50]; omega⟩)

/-- h2: all 25 bands. -/
def hid2 (c : Dev nD) : Vec F S10000x128 .f32 := fill m c 25 le_rfl

/-- A row of band `t`, `t < n`, of the first `n` bands is that band's row: later bands lie below it. -/
theorem fill_band (c : Dev nD) : ∀ (n : ℕ) (hn : n ≤ 25) (t : Fin cfg0.N), t.val < n → ∀ (y : S10000x128.Idx)
    (h : 400 * t.val ≤ (y (0 : Fin 2)).val ∧ (y (0 : Fin 2)).val < 400 * t.val + 400),
    fill m c n hn y = band m c t (Rect.unitLocal (s := S10000x128) (off := ![400 * t.val, 0]) (size := S400x128.size) y (Rect.unit_rows_mem y rfl rfl h))
  | 0, _, t, ht, _, _ => absurd ht (Nat.not_lt_zero _)
  | n + 1, hn, t, ht, y, h => by
    rw [fill]
    unfold putRows
    by_cases e : t.val = n
    · obtain ⟨tv, tlt⟩ := t
      dsimp only at e h ⊢
      subst e
      rw [dif_pos h]
    · have hne : ¬(400 * n ≤ (y (0 : Fin 2)).val ∧ (y (0 : Fin 2)).val < 400 * n + 400) := by omega
      rw [dif_neg hne]
      exact fill_band c n _ t (by omega) y h

/-- `d` and `g` agree on the rows below `r`. -/
def agreeBelow (r : ℕ) (d g : Vec F S10000x128 .f32) : Prop := ∀ y : S10000x128.Idx, (y (0 : Fin 2)).val < r → d y = g y

/-- Writing band `t` over contents that are h2 below row 400 t gives contents that are h2 below row 400 (t + 1). -/
theorem agree_step (c : Dev nD) (t : Fin cfg0.N) (ht : t.val < 25) (d : Vec F S10000x128 .f32)
    (hd : agreeBelow (400 * t.val) d (hid2 m c)) :
    agreeBelow (400 * (t.val + 1)) (putRows (400 * t.val) d (band m c t)) (hid2 m c) := by
  intro y hy
  unfold putRows
  by_cases h : 400 * t.val ≤ (y (0 : Fin 2)).val ∧ (y (0 : Fin 2)).val < 400 * t.val + 400
  · rw [dif_pos h]; exact (fill_band m c 25 le_rfl t ht y h).symm
  · rw [dif_neg h]; exact hd y (by omega)

/-- Contents that are h2 on every row are h2. -/
theorem eq_of_agree (d g : Vec F S10000x128 .f32) (r : ℕ) (hr : 10000 ≤ r) (h : agreeBelow r d g) : d = g :=
  funext fun y => h y (by have : (y (0 : Fin 2)).val < 10000 := (y (0 : Fin 2)).isLt; omega)

/-! ## The invariant before each position -/

/-- Before the first point the class invariant (both scratch buffers at anything); afterwards the first scratch
    at h1 and the second at contents that are h2 on the rows filled so far. -/
def Phi (c : Dev nD) : ℕ → sProp 𝕄
  | 0 => Pipeline.ΦA spec0 c
  | n + 1 => iprop(iprop(owns (c : Thread nD τ) scM0 fullShare (lin1 m c) ∗ (∃ d, ⌜agreeBelow (400 * (n + 1)) d (hid2 m c)⌝ ∗ owns (c : Thread nD τ) scM1 fullShare d)) ∗ (∃ r, prngReg c r))

theorem Phi_succ (c : Dev nD) (n : ℕ) :
    Phi m c (n + 1) = iprop(iprop(owns (c : Thread nD τ) scM0 fullShare (lin1 m c) ∗ (∃ d, ⌜agreeBelow (400 * (n + 1)) d (hid2 m c)⌝ ∗ owns (c : Thread nD τ) scM1 fullShare d)) ∗ (∃ r, prngReg c r)) := rfl

theorem Phi_pos (c : Dev nD) (n : ℕ) (hz : n ≠ 0) :
    Phi m c n = iprop(iprop(owns (c : Thread nD τ) scM0 fullShare (lin1 m c) ∗ (∃ d, ⌜agreeBelow (400 * n) d (hid2 m c)⌝ ∗ owns (c : Thread nD τ) scM1 fullShare d)) ∗ (∃ r, prngReg c r)) := by
  cases n with
  | zero => exact absurd rfl hz
  | succ n => rfl

/-! ## The proof data -/

/-- The arrays as the region finds them; after the body each input's buffer at its block and the output's at
    the adjacency block times h2 (read only where the window is written back: the second pass); the invariant
    `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 1 t) (hid2 m c)
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay3 (iblk m c 1 t) (hid2 m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the closed forms of the three conditions say which of the three runs applies; the
    invariant hands it the scratch buffers and takes them back with one more band known (first pass) or unchanged
    (second pass); in the first pass the output's buffer goes back as found, in the second at the block stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Phi m c (t.val + 1) from rfl, Phi_succ]
  rw [show (dats m 0 c).Φ t.castSucc = Phi m c t.val from by dsimp only [dats]; simp only [Fin.coe_castSucc]]
  have hN : t.val < 50 := lt_of_lt_of_eq t.isLt N50
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h1 : t.val < 25
  · rw [Dat.leavesExact_idle (dats m 0 c) 6 t ((idle6_iff t).trans (decide_eq_true h1)) ((flush6_iff t).trans (decide_eq_false (by omega)))]
    have hc1 : condPass0 (grid0.coords t) := (condPass0_iff t).mpr h1
    have hc2 : ¬condPass1 (grid0.coords t) := fun h => absurd ((condPass1_iff t).mp h) (by omega)
    by_cases hz : t.val = 0
    · have hc0 : condFirst (grid0.coords t) := (condFirst_iff t).mpr hz
      rw [show Phi m c t.val = Pipeline.ΦA spec0 c from by rw [hz]; rfl, PhiA_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runFirst c (grid0.coords t) _ _ _ _ _ _ _ _ _ _ _ _ _ _ _ _ _ _ hc0 hc1 hc2 (400 * t.val) (bandOff t h1) (iblk m c 0 t) (iblk m c 1 t) (iblk m c 2 t) (iblk m c 3 t) (iblk m c 4 t) (iblk m c 5 t) _ ds0 ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      have et : t = p0 := Fin.ext hz
      isplitl [HS0 HS1 Hg]
      · isplitl [HS0 HS1]
        · isplitl [HS0]
          · rw [et]; iexact HS0
          iexists _; isplitr; swap; · iexact HS1
          ipureintro
          have hb : k0_pay2 (iblk m c 1 t) (k0_pay1 (iblk m c 0 t) (iblk m c 2 t) (iblk m c 3 t)) (iblk m c 4 t) (iblk m c 5 t) = band m c t := by
            rw [et]; rfl
          rw [hb]
          exact agree_step m c t h1 ds1 (fun y hy => absurd hy (by omega))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬condFirst (grid0.coords t) := fun h => hz ((condFirst_iff t).mp h)
      rw [Phi_pos m c _ hz]
      iintro ⟨⟨⟨HS0, ⟨%ds1, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runPass0 c (grid0.coords t) _ _ _ _ _ _ _ _ _ _ _ _ _ _ _ _ _ _ hc0 hc1 hc2 (400 * t.val) (bandOff t h1) (iblk m c 0 t) (iblk m c 1 t) (iblk m c 2 t) (iblk m c 3 t) (iblk m c 4 t) (iblk m c 5 t) _ (lin1 m c) ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          exact agree_step m c t h1 ds1 hd
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · rw [show (dats m 0 c).leavesExact 6 t = owns (c : Thread nD τ) (ms6 t) fullShare ((dats m 0 c).after 6 t) from by
      unfold Dat.leavesExact; rw [(idle6_iff t).trans (decide_eq_false h1)], after6]
    have hz : t.val ≠ 0 := by omega
    have hc0 : ¬condFirst (grid0.coords t) := fun h => hz ((condFirst_iff t).mp h)
    have hc1 : ¬condPass0 (grid0.coords t) := fun h => h1 ((condPass0_iff t).mp h)
    have hc2 : condPass1 (grid0.coords t) := (condPass1_iff t).mpr (by omega)
    rw [Phi_pos m c _ hz]
    iintro ⟨⟨⟨HS0, ⟨%ds1, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : ds1 = hid2 m c := eq_of_agree ds1 (hid2 m c) (400 * t.val) (by omega) hd
    iapply (runPass1 c (grid0.coords t) _ _ _ _ _ _ _ _ _ _ _ _ _ _ _ _ _ _ hc0 hc1 hc2 (iblk m c 0 t) (iblk m c 1 t) (iblk m c 2 t) (iblk m c 3 t) (iblk m c 4 t) (iblk m c 5 t) _ (lin1 m c) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists _; isplitr; swap; · iexact HS1
        ipureintro
        exact fun y hy => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl]
  exact Idealize.SL.BI.Entails.refl _

/-- After the last point the invariant gives the class invariant back: what the scratch buffers hold is forgotten. -/
theorem hout (c : Dev nD) : (dats m 0 c).Φ (Fin.last cfg0.N) ⊢ Pipeline.ΦA spec0 c := by
  rw [show (dats m 0 c).Φ (Fin.last cfg0.N) = Phi m c cfg0.N from rfl, Phi_pos m c _ (by rw [N50]; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has each array of the pipeline at what
    the write-backs of the proof data leave and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.IBase.lean ====
/-
  What the three control cases of the graph-convolution body share: the branch conditions decided over the
  grid, where the output window is idle and where it is written back, the row offset of the band of the
  second scratch a point fills, and a band of rows written over an array.
-/
import proofs.«124348_g2817498546214_cont_9to1_1806_5_alg».proof.Proof.Gen.KernelIdeal.Frame
import proofs.«124348_g2817498546214_cont_9to1_1806_5_alg».proof.Proof.Gen.KernelIdeal.Skeleton
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-! ## The three branch conditions, in closed form over the grid -/

/-- The first branch (fill the first scratch with the first layer's linear map) is taken at the first point only. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem condFirst_iff : ∀ t : Fin cfg0.N, condFirst (grid0.coords t) ↔ t.val = 0 :=
  (by decide +kernel : ∀ t : Fin grid0.N, condFirst (grid0.coords t) ↔ t.val = 0)

/-- The second branch (one band of the second layer's input) is taken in the first pass: points 0 … 24. -/
abbrev condPass0 (i : grid0.Coords) : Prop := k0_cond2 i = 1#1
theorem condPass0_iff : ∀ t : Fin cfg0.N, condPass0 (grid0.coords t) ↔ t.val < 25 :=
  (by decide +kernel : ∀ t : Fin grid0.N, condPass0 (grid0.coords t) ↔ t.val < 25)

/-- The third branch (one block of the result) is taken in the second pass: points 25 … 49. -/
abbrev condPass1 (i : grid0.Coords) : Prop := k0_cond3 i = 1#1
theorem condPass1_iff : ∀ t : Fin cfg0.N, condPass1 (grid0.coords t) ↔ 25 ≤ t.val :=
  (by decide +kernel : ∀ t : Fin grid0.N, condPass1 (grid0.coords t) ↔ 25 ≤ t.val)

/-! ## The output window over the grid -/

/-- The output window is idle exactly in the first pass, -/
theorem idle6_iff : ∀ t : Fin cfg0.N, cfg0.idle 6 (grid0.coords t) = decide (t.val < 25) :=
  (by decide +kernel : ∀ t : Fin grid0.N, cfg0.idle 6 (grid0.coords t) = decide (t.val < 25))
/-- and written back exactly in the second: its block index is 0 throughout the first pass and at the second
    pass's first point, so nothing is written back before that point's body has stored the block. -/
theorem flush6_iff : ∀ t : Fin cfg0.N, (cfg0.win 6).flush t = decide (25 ≤ t.val) :=
  (by decide +kernel : ∀ t : Fin grid0.N, win0_6.flush t = decide (25 ≤ t.val))
/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- In the first pass point `t` fills rows `400 t … 400 t + 399` of the second scratch. -/
theorem bandOff : ∀ t : Fin cfg0.N, t.val < 25 → k0_off1 (grid0.coords t) = ![400 * t.val, 0] :=
  (by decide +kernel : ∀ t : Fin grid0.N, t.val < 25 → k0_off1 (grid0.coords t) = ![400 * t.val, 0])

/-! ## Whole-buffer loads and stores -/

theorem zeros2 : (![0, 0] : Fin 2 → ℕ) = fun _ => 0 := by
  funext a; fin_cases a <;> rfl

/-- One store through the whole buffer leaves its payload, whatever the buffer held. -/
theorem read_whole_store {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-! ## A band of rows written over an array -/

/-- The array `d` with the 400 rows from row `o` on replaced by the block `w`. -/
def putRows (o : ℕ) (d : Vec F S10000x128 .f32) (w : Vec F S400x128 .f32) : Vec F S10000x128 .f32 :=
  fun y => if h : o ≤ (y (0 : Fin 2)).val ∧ (y (0 : Fin 2)).val < o + 400 then
      w (Rect.unitLocal (s := S10000x128) (off := ![o, 0]) (size := S400x128.size) y (Rect.unit_rows_mem y rfl rfl h))
    else d y

/-- One store of 400 whole rows from row `o` on, over contents `d`, leaves `putRows o d w`. -/
theorem read_band_store {sg : RefSig} {κ : Kind} {sp : Space} (v : View sg κ sp S10000x128 .f32)
    (f : v.ty.Contents (Elt F)) (d : Vec F S10000x128 .f32) (hd : v.read (Elt F) f = d)
    {off : Fin 2 → ℕ} {o : ℕ} (inb : ∀ a : Fin 2, off a + S400x128.size a ≤ S10000x128.size a)
    (w : Vec F S400x128 .f32) (hoff : off = ![o, 0]) :
    v.read (Elt F) (v.writes (Elt F) f [(⟨Rect.unit (s := S10000x128) off S400x128.size inb, w⟩ : View.Piece (Elt F) S10000x128 .f32)])
      = putRows o d w := by
  funext y
  rw [View.read_writes_cons_rows v f inb w [] y hoff (show S400x128.size (0 : Fin 2) = 400 from rfl) rfl]
  unfold putRows
  split
  · rfl
  · rw [← hd]; rfl

end Cert.KernelIdeal.Body

end
-- ==== Proof.IRunA.lean ====
/-
  The body at the first point: it fills the first scratch with the first layer's linear map `x · W1ᵀ + b1`,
  reads it back, and stores the first band of 400 rows of the second scratch; the output block is left as found.
-/
import proofs.«124348_g2817498546214_cont_9to1_1806_5_alg».proof.Proof.IBase

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- At the first point the body leaves every input and the output buffer as they were, the first scratch — whatever
    it held — at `x · W1ᵀ + b1`, and the second scratch with rows `o … o + 399` replaced by
    `max(A_blk · (x · W1ᵀ + b1), 0) · W2ᵀ + b2`. -/
theorem runFirst (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole)
    (hc0 : condFirst i) (hc1 : condPass0 i) (hc2 : ¬condPass1 i) (o : ℕ) (ho : k0_off1 i = ![o, 0])
    (x0 : Vec F S10000x128 .f32) (x1 : Vec F S400x10000 .f32) (x2 : Vec F S128x128 .f32) (x3 : Vec F S1x128 .f32) (x4 : Vec F S128x128 .f32) (x5 : Vec F S1x128 .f32) (d6 : Vec F S400x128 .f32) (ds0 xs1 : Vec F S10000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare ds0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare (k0_pay1 x0 x2 x3) ∗ owns (c : Thread nD τ) arg10 fullShare (putRows o xs1 (k0_pay2 x1 (k0_pay1 x0 x2 x3) x4 x5))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, H6, ⟨%fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]; · iexact H6
  isplitl [HS0]
  · iexists _; isplitr; swap; · iexact HS0
    ipureintro
    sl_unfold_run_names
    rw [read_whole_store _ _ zeros2]
    simp only [View.readAt_eq_ld, harg2.read_unread, harg3.read_unread, harg4.read_unread, harg5.read_unread, harg6.read_unread, harg7.read_unread, harg9.read_unread, harg10.read_unread, View.ld_unit_zero (S := S10000x128) zeros2, View.ld_unit_zero (S := S400x10000) zeros2, View.ld_unit_zero (S := S128x128) zeros2, View.ld_unit_zero (S := S1x128) zeros2, View.ld_unit_zero (S := S400x128) zeros2]
  iexists _; isplitr; swap; · iexact HS1
  ipureintro
  sl_unfold_run_names
  rw [read_band_store _ _ xs1 (harg10.read_unread _) _ _ ho]
  rw [View.readCov_unit_zero (S := S10000x128) arg9.view zeros2]
  simp only [View.readAt_eq_ld, harg2.read_unread, harg3.read_unread, harg4.read_unread, harg5.read_unread, harg6.read_unread, harg7.read_unread, harg9.read_unread, harg10.read_unread, View.ld_unit_zero (S := S10000x128) zeros2, View.ld_unit_zero (S := S400x10000) zeros2, View.ld_unit_zero (S := S128x128) zeros2, View.ld_unit_zero (S := S1x128) zeros2, View.ld_unit_zero (S := S400x128) zeros2]

end Cert.KernelIdeal.Body

end
-- ==== Proof.IRunB.lean ====
/-
  The body at a first-pass point after the first: it loads its block of the adjacency rows, the whole first
  scratch, the second layer's weights and bias, and stores one band of 400 rows of the second scratch; the
  output block and everything else are left as found.
-/
import proofs.«124348_g2817498546214_cont_9to1_1806_5_alg».proof.Proof.IBase

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- At a first-pass point other than the first, the body leaves every input, the output buffer and the first
    scratch as they were, and the second scratch with rows `o … o + 399` replaced by
    `max(A_blk · s0, 0) · W2ᵀ + b2`, `s0` the first scratch's contents and `o` the band's row offset. -/
theorem runPass0 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole)
    (hc0 : ¬condFirst i) (hc1 : condPass0 i) (hc2 : ¬condPass1 i) (o : ℕ) (ho : k0_off1 i = ![o, 0])
    (x0 : Vec F S10000x128 .f32) (x1 : Vec F S400x10000 .f32) (x2 : Vec F S128x128 .f32) (x3 : Vec F S1x128 .f32) (x4 : Vec F S128x128 .f32) (x5 : Vec F S1x128 .f32) (d6 : Vec F S400x128 .f32) (xs0 xs1 : Vec F S10000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ owns (c : Thread nD τ) arg10 fullShare (putRows o xs1 (k0_pay2 x1 xs0 x4 x5))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, H6, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]; · iexact H6
  isplitl [HS0]
  · iexists _; isplitr; · ipureintro; exact harg9.read_unread _
    iexact HS0
  iexists _; isplitr; swap; · iexact HS1
  ipureintro
  rw [read_band_store _ _ xs1 (harg10.read_unread _) _ _ ho]
  simp only [View.readAt_eq_ld, harg2.read_unread, harg3.read_unread, harg4.read_unread, harg5.read_unread, harg6.read_unread, harg7.read_unread, harg9.read_unread, harg10.read_unread, View.ld_unit_zero (S := S10000x128) zeros2, View.ld_unit_zero (S := S400x10000) zeros2, View.ld_unit_zero (S := S128x128) zeros2, View.ld_unit_zero (S := S1x128) zeros2, View.ld_unit_zero (S := S400x128) zeros2]

end Cert.KernelIdeal.Body

end
-- ==== Proof.IRunC.lean ====
/-
  The body at a point of the second pass: it loads its block of the adjacency rows and the whole second
  scratch, multiplies them, and stores the product as the output block; nothing else is touched.
-/
import proofs.«124348_g2817498546214_cont_9to1_1806_5_alg».proof.Proof.IBase

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- At a second-pass point, on whole staging memrefs at given contents, the body leaves every input and both
    scratch buffers as they were and the output block at the product of the adjacency block with the second
    scratch's contents. -/
theorem runPass1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole)
    (hc0 : ¬condFirst i) (hc1 : ¬condPass0 i) (hc2 : condPass1 i)
    (x0 : Vec F S10000x128 .f32) (x1 : Vec F S400x10000 .f32) (x2 : Vec F S128x128 .f32) (x3 : Vec F S1x128 .f32) (x4 : Vec F S128x128 .f32) (x5 : Vec F S1x128 .f32) (d6 : Vec F S400x128 .f32) (xs0 xs1 : Vec F S10000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 xs1) ∗ owns (c : Thread nD τ) arg9 fullShare xs0 ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_whole_store _ _ zeros2]
    simp only [View.readAt_eq_ld, harg2.read_unread, harg3.read_unread, harg4.read_unread, harg5.read_unread, harg6.read_unread, harg7.read_unread, harg9.read_unread, harg10.read_unread, View.ld_unit_zero (S := S10000x128) zeros2, View.ld_unit_zero (S := S400x10000) zeros2, View.ld_unit_zero (S := S128x128) zeros2, View.ld_unit_zero (S := S1x128) zeros2, View.ld_unit_zero (S := S400x128) zeros2]
  isplitl [HS0]
  · iexists _; isplitr; · ipureintro; exact harg9.read_unread _
    iexact HS0
  iexists _; isplitr; · ipureintro; exact harg10.read_unread _
  iexact HS1

end Cert.KernelIdeal.Body

end
-- ==== Proof.IFrame.lean ====
/-
  The proof data of the graph-convolution kernel's one pipeline, and its frame run.

  The grid is two passes over the 25 row blocks of the adjacency matrix A. The first scratch holds
  h1 = x · W1ᵀ + b1 from the first point on. In the first pass point t stores rows 400 t … 400 t + 399 of
  h2 = max(A · h1, 0) · W2ᵀ + b2 into the second scratch, so before point n the rows below 400 n of that
  scratch are h2's, whatever the rows above hold; from the second pass on the whole scratch is h2. In the
  second pass point 25 + i stores block i of A · h2 into the output window, which is written back at exactly
  those points; in the first pass the window is idle and handed back as found.
-/
import proofs.«124348_g2817498546214_cont_9to1_1806_5_alg».proof.Proof.IRunA
import proofs.«124348_g2817498546214_cont_9to1_1806_5_alg».proof.Proof.IRunB
import proofs.«124348_g2817498546214_cont_9to1_1806_5_alg».proof.Proof.IRunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, the scratch buffers, the class invariant -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
abbrev scM0 : Memref sig .tc .vmem S10000x128 .f32 := Memref.whole cc0_scratch0
abbrev scM1 : Memref sig .tc .vmem S10000x128 .f32 := Memref.whole cc0_scratch1

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

theorem N50 : cfg0.N = 50 := N_0

/-- The first point. -/
abbrev p0 : Fin cfg0.N := ⟨0, by rw [N50]; omega⟩

/-! ## What the two scratch buffers hold -/

/-- h1 = x · W1ᵀ + b1: the body's first payload of the whole-array blocks of x, W1ᵀ and b1 (as the first point finds them). -/
def lin1 (c : Dev nD) : Vec F S10000x128 .f32 := k0_pay1 (iblk m c 0 p0) (iblk m c 2 p0) (iblk m c 3 p0)

/-- Rows 400 t … 400 t + 399 of h2: the body's second payload of the adjacency block at point `t` and h1. -/
def band (c : Dev nD) (t : Fin cfg0.N) : Vec F S400x128 .f32 := k0_pay2 (iblk m c 1 t) (lin1 m c) (iblk m c 4 t) (iblk m c 5 t)

/-- The first `n` bands written one after the other over arbitrary contents. -/
def fill (c : Dev nD) : (n : ℕ) → n ≤ 25 → Vec F S10000x128 .f32
  | 0, _ => fun _ => Classical.choice (Elt.nonempty F EltTy.f32)
  | n + 1, h => putRows (400 * n) (fill c n (Nat.le_of_succ_le h)) (band m c ⟨n, by rw [N50]; omega⟩)

/-- h2: all 25 bands. -/
def hid2 (c : Dev nD) : Vec F S10000x128 .f32 := fill m c 25 le_rfl

/-- A row of band `t`, `t < n`, of the first `n` bands is that band's row: later bands lie below it. -/
theorem fill_band (c : Dev nD) : ∀ (n : ℕ) (hn : n ≤ 25) (t : Fin cfg0.N), t.val < n → ∀ (y : S10000x128.Idx)
    (h : 400 * t.val ≤ (y (0 : Fin 2)).val ∧ (y (0 : Fin 2)).val < 400 * t.val + 400),
    fill m c n hn y = band m c t (Rect.unitLocal (s := S10000x128) (off := ![400 * t.val, 0]) (size := S400x128.size) y (Rect.unit_rows_mem y rfl rfl h))
  | 0, _, t, ht, _, _ => absurd ht (Nat.not_lt_zero _)
  | n + 1, hn, t, ht, y, h => by
    rw [fill]
    unfold putRows
    by_cases e : t.val = n
    · obtain ⟨tv, tlt⟩ := t
      dsimp only at e h ⊢
      subst e
      rw [dif_pos h]
    · have hne : ¬(400 * n ≤ (y (0 : Fin 2)).val ∧ (y (0 : Fin 2)).val < 400 * n + 400) := by omega
      rw [dif_neg hne]
      exact fill_band c n _ t (by omega) y h

/-- `d` and `g` agree on the rows below `r`. -/
def agreeBelow (r : ℕ) (d g : Vec F S10000x128 .f32) : Prop := ∀ y : S10000x128.Idx, (y (0 : Fin 2)).val < r → d y = g y

/-- Writing band `t` over contents that are h2 below row 400 t gives contents that are h2 below row 400 (t + 1). -/
theorem agree_step (c : Dev nD) (t : Fin cfg0.N) (ht : t.val < 25) (d : Vec F S10000x128 .f32)
    (hd : agreeBelow (400 * t.val) d (hid2 m c)) :
    agreeBelow (400 * (t.val + 1)) (putRows (400 * t.val) d (band m c t)) (hid2 m c) := by
  intro y hy
  unfold putRows
  by_cases h : 400 * t.val ≤ (y (0 : Fin 2)).val ∧ (y (0 : Fin 2)).val < 400 * t.val + 400
  · rw [dif_pos h]; exact (fill_band m c 25 le_rfl t ht y h).symm
  · rw [dif_neg h]; exact hd y (by omega)

/-- Contents that are h2 on every row are h2. -/
theorem eq_of_agree (d g : Vec F S10000x128 .f32) (r : ℕ) (hr : 10000 ≤ r) (h : agreeBelow r d g) : d = g :=
  funext fun y => h y (by have : (y (0 : Fin 2)).val < 10000 := (y (0 : Fin 2)).isLt; omega)

/-! ## The invariant before each position -/

/-- Before the first point the class invariant (both scratch buffers at anything); afterwards the first scratch
    at h1 and the second at contents that are h2 on the rows filled so far. -/
def Phi (c : Dev nD) : ℕ → sProp 𝕄
  | 0 => Pipeline.ΦA spec0 c
  | n + 1 => iprop(iprop(owns (c : Thread nD τ) scM0 fullShare (lin1 m c) ∗ (∃ d, ⌜agreeBelow (400 * (n + 1)) d (hid2 m c)⌝ ∗ owns (c : Thread nD τ) scM1 fullShare d)) ∗ (∃ r, prngReg c r))

theorem Phi_succ (c : Dev nD) (n : ℕ) :
    Phi m c (n + 1) = iprop(iprop(owns (c : Thread nD τ) scM0 fullShare (lin1 m c) ∗ (∃ d, ⌜agreeBelow (400 * (n + 1)) d (hid2 m c)⌝ ∗ owns (c : Thread nD τ) scM1 fullShare d)) ∗ (∃ r, prngReg c r)) := rfl

theorem Phi_pos (c : Dev nD) (n : ℕ) (hz : n ≠ 0) :
    Phi m c n = iprop(iprop(owns (c : Thread nD τ) scM0 fullShare (lin1 m c) ∗ (∃ d, ⌜agreeBelow (400 * n) d (hid2 m c)⌝ ∗ owns (c : Thread nD τ) scM1 fullShare d)) ∗ (∃ r, prngReg c r)) := by
  cases n with
  | zero => exact absurd rfl hz
  | succ n => rfl

/-! ## The proof data -/

/-- The arrays as the region finds them; after the body each input's buffer at its block and the output's at
    the adjacency block times h2 (read only where the window is written back: the second pass); the invariant
    `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 1 t) (hid2 m c)
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay3 (iblk m c 1 t) (hid2 m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the closed forms of the three conditions say which of the three runs applies; the
    invariant hands it the scratch buffers and takes them back with one more band known (first pass) or unchanged
    (second pass); in the first pass the output's buffer goes back as found, in the second at the block stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Phi m c (t.val + 1) from rfl, Phi_succ]
  rw [show (dats m 0 c).Φ t.castSucc = Phi m c t.val from by dsimp only [dats]; simp only [Fin.coe_castSucc]]
  have hN : t.val < 50 := lt_of_lt_of_eq t.isLt N50
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h1 : t.val < 25
  · rw [Dat.leavesExact_idle (dats m 0 c) 6 t ((idle6_iff t).trans (decide_eq_true h1)) ((flush6_iff t).trans (decide_eq_false (by omega)))]
    have hc1 : condPass0 (grid0.coords t) := (condPass0_iff t).mpr h1
    have hc2 : ¬condPass1 (grid0.coords t) := fun h => absurd ((condPass1_iff t).mp h) (by omega)
    by_cases hz : t.val = 0
    · have hc0 : condFirst (grid0.coords t) := (condFirst_iff t).mpr hz
      rw [show Phi m c t.val = Pipeline.ΦA spec0 c from by rw [hz]; rfl, PhiA_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runFirst c (grid0.coords t) _ _ _ _ _ _ _ _ _ _ _ _ _ _ _ _ _ _ hc0 hc1 hc2 (400 * t.val) (bandOff t h1) (iblk m c 0 t) (iblk m c 1 t) (iblk m c 2 t) (iblk m c 3 t) (iblk m c 4 t) (iblk m c 5 t) _ ds0 ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      have et : t = p0 := Fin.ext hz
      isplitl [HS0 HS1 Hg]
      · isplitl [HS0 HS1]
        · isplitl [HS0]
          · rw [et]; iexact HS0
          iexists _; isplitr; swap; · iexact HS1
          ipureintro
          have hb : k0_pay2 (iblk m c 1 t) (k0_pay1 (iblk m c 0 t) (iblk m c 2 t) (iblk m c 3 t)) (iblk m c 4 t) (iblk m c 5 t) = band m c t := by
            rw [et]; rfl
          rw [hb]
          exact agree_step m c t h1 ds1 (fun y hy => absurd hy (by omega))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬condFirst (grid0.coords t) := fun h => hz ((condFirst_iff t).mp h)
      rw [Phi_pos m c _ hz]
      iintro ⟨⟨⟨HS0, ⟨%ds1, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runPass0 c (grid0.coords t) _ _ _ _ _ _ _ _ _ _ _ _ _ _ _ _ _ _ hc0 hc1 hc2 (400 * t.val) (bandOff t h1) (iblk m c 0 t) (iblk m c 1 t) (iblk m c 2 t) (iblk m c 3 t) (iblk m c 4 t) (iblk m c 5 t) _ (lin1 m c) ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          exact agree_step m c t h1 ds1 hd
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · rw [show (dats m 0 c).leavesExact 6 t = owns (c : Thread nD τ) (ms6 t) fullShare ((dats m 0 c).after 6 t) from by
      unfold Dat.leavesExact; rw [(idle6_iff t).trans (decide_eq_false h1)], after6]
    have hz : t.val ≠ 0 := by omega
    have hc0 : ¬condFirst (grid0.coords t) := fun h => hz ((condFirst_iff t).mp h)
    have hc1 : ¬condPass0 (grid0.coords t) := fun h => h1 ((condPass0_iff t).mp h)
    have hc2 : condPass1 (grid0.coords t) := (condPass1_iff t).mpr (by omega)
    rw [Phi_pos m c _ hz]
    iintro ⟨⟨⟨HS0, ⟨%ds1, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : ds1 = hid2 m c := eq_of_agree ds1 (hid2 m c) (400 * t.val) (by omega) hd
    iapply (runPass1 c (grid0.coords t) _ _ _ _ _ _ _ _ _ _ _ _ _ _ _ _ _ _ hc0 hc1 hc2 (iblk m c 0 t) (iblk m c 1 t) (iblk m c 2 t) (iblk m c 3 t) (iblk m c 4 t) (iblk m c 5 t) _ (lin1 m c) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists _; isplitr; swap; · iexact HS1
        ipureintro
        exact fun y hy => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl]
  exact Idealize.SL.BI.Entails.refl _

/-- After the last point the invariant gives the class invariant back: what the scratch buffers hold is forgotten. -/
theorem hout (c : Dev nD) : (dats m 0 c).Φ (Fin.last cfg0.N) ⊢ Pipeline.ΦA spec0 c := by
  rw [show (dats m 0 c).Φ (Fin.last cfg0.N) = Phi m c cfg0.N from rfl, Phi_pos m c _ (by rw [N50]; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has each array of the pipeline at what
    the write-backs of the proof data leave and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«124348_g2817498546214_cont_9to1_1806_5_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«124348_g2817498546214_cont_9to1_1806_5_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«124348_g2817498546214_cont_9to1_1806_5_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«124348_g2817498546214_cont_9to1_1806_5_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«124348_g2817498546214_cont_9to1_1806_5_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibGcnDense.lean ====
/-
  The two-layer graph convolution as one function of its arrays, at the ideal values.

  With `A` the `[n, n]` adjacency matrix, `x` the `[n, d]` features, `w1`, `w2` the `[d, d]` weights (already
  transposed: row `k` is input feature `k`) and `b1`, `b2` the biases,
      h1 = x · w1 + b1,   h2 = max(A · h1, 0) · w2 + b2,   out = A · h2,
  every product the plain sum `∑ k, a (p, k) · w (k, c)` in one fixed order. Each step sends row `p` of its left
  operand to row `p` of its result, so a band of rows of `h2` computed from a band of rows of `A` is that band of
  `h2`, and a block of rows of `out` computed from a block of rows of `A` is that block of `out`. The kernel's three
  payloads and the reference's composed term are shown to be these functions; sums are compared term by term in
  the same order, so no algebra of the extended reals is used and nothing needs to be finite.
-/
import proofs.«124348_g2817498546214_cont_9to1_1806_5_alg».proof.Proof.LibProdRows
import proofs.«124348_g2817498546214_cont_9to1_1806_5_alg».proof.Proof.LibRowBias

noncomputable section

open scoped BigOperators

namespace Gcn

open Idealize.ShloMosaic Idealize.ShloMosaic.ValueIdx Cert.DenseRow Cert.RowBias Cert.ProdRows Cert.PlainDot
open Cert.KernelIdeal.RegionValue (prodArr prodArr_apply block_prod)

/-- A rank-2 array of extended reals. -/
abbrev Arr (r c : ℕ) : Type := (⟨2, ![r, c]⟩ : Shape).Idx → EReal
/-- A vector of extended reals. -/
abbrev Vec1 (n : ℕ) : Type := (⟨1, ![n]⟩ : Shape).Idx → EReal

/-- The second layer's input `h2 = max(A · (x · w1 + b1), 0) · w2 + b2`. -/
def hidden {n d : ℕ} (x : Arr n d) (A : Arr n n) (w1 : Arr d d) (b1 : Vec1 d) (w2 : Arr d d) (b2 : Vec1 d) : Arr n d :=
  layerArr (actArr zf (prodArr A (layerArr x w1 b1))) w2 b2

/-- The network's output `A · h2`. -/
def gcn {n d : ℕ} (x : Arr n d) (A : Arr n n) (w1 : Arr d d) (b1 : Vec1 d) (w2 : Arr d d) (b2 : Vec1 d) : Arr n d :=
  prodArr A (hidden x A w1 b1 w2 b2)

/-! ## The kernel's payloads -/

/-- A matrix product into the zero accumulator plus a one-row bias broadcast over the rows, the weight, the bias and
    the result each cast to its own shape: the dense layer with the bias's one row. -/
theorem kernel_lin {R K N : ℕ} (prec : Option ContractPrecision) (a : FVec Ideal ⟨2, ![R, K]⟩ .f32)
    (w : FVec Ideal ⟨2, ![K, N]⟩ .f32) (v : FVec Ideal ⟨2, ![1, N]⟩ .f32)
    (hw : (⟨2, ![K, N]⟩ : Shape).ShapeCasts ⟨2, ![K, N]⟩) (hc : (⟨2, ![1, N]⟩ : Shape).ShapeCasts ⟨2, ![1, N]⟩)
    (hb : (⟨2, ![1, N]⟩ : Shape).Broadcasts ⟨2, ![R, N]⟩) (ho : (⟨2, ![R, N]⟩ : Shape).ShapeCasts ⟨2, ![R, N]⟩) :
    shapeCast ⟨2, ![R, N]⟩
        (addf (matmul (DotDims.plain R K N) prec a (shapeCast ⟨2, ![K, N]⟩ w hw) (constant ⟨2, ![R, N]⟩ .f32 0x00000000#32))
          (broadcastTo ⟨2, ![R, N]⟩ (shapeCast ⟨2, ![1, N]⟩ v hc) hb)) ho
      = layerArr a w (unrow v) := by
  rw [shapeCast_self _ ho, shapeCast_self w hw]
  exact klayer1Arr (DotDims.plain R K N) rfl rfl (lhs_at R K N) (rhs_at R K N) prec a w v hc hb

/-- A band of rows of the second layer's input as the kernel computes it from a block `a` of rows of the adjacency
    matrix and the whole `h1`: the rectified product, then the dense layer. -/
theorem kernel_band {r n d : ℕ} (prec₁ prec₂ : Option ContractPrecision) (a : FVec Ideal ⟨2, ![r, n]⟩ .f32)
    (h : FVec Ideal ⟨2, ![n, d]⟩ .f32) (w : FVec Ideal ⟨2, ![d, d]⟩ .f32) (v : FVec Ideal ⟨2, ![1, d]⟩ .f32)
    (hw : (⟨2, ![d, d]⟩ : Shape).ShapeCasts ⟨2, ![d, d]⟩) (hc : (⟨2, ![1, d]⟩ : Shape).ShapeCasts ⟨2, ![1, d]⟩)
    (hb : (⟨2, ![1, d]⟩ : Shape).Broadcasts ⟨2, ![r, d]⟩) (ho : (⟨2, ![r, d]⟩ : Shape).ShapeCasts ⟨2, ![r, d]⟩) :
    shapeCast ⟨2, ![r, d]⟩
        (addf (matmul (DotDims.plain r d d) prec₂
            (maximumf (matmul (DotDims.plain r n d) prec₁ a h (constant ⟨2, ![r, d]⟩ .f32 0x00000000#32))
              (broadcast ⟨2, ![r, d]⟩ (Scalar.ofBits (F := Ideal) .f32 0x00000000#32)))
            (shapeCast ⟨2, ![d, d]⟩ w hw) (constant ⟨2, ![r, d]⟩ .f32 0x00000000#32))
          (broadcastTo ⟨2, ![r, d]⟩ (shapeCast ⟨2, ![1, d]⟩ v hc) hb)) ho
      = layerArr (actArr zf (prodArr a h)) w (unrow v) := by
  rw [kprod prec₁ a h, kact]
  exact kernel_lin prec₂ (actArr zf (prodArr a h)) w v hw hc hb ho

/-! ## Rows -/

/-- Row `p` of the band computed from a block `a` of rows of `A` is row `off + p` of the same computed from `A`
    whole, when `a` is `A` read `off` rows down. -/
theorem band_rows {r n d : ℕ} (a : Arr r n) (A : Arr n n) (h1 : Arr n d) (w2 : Arr d d) (b2 : Vec1 d) (off : ℕ)
    (ha : ∀ (u : (⟨2, ![r, n]⟩ : Shape).Idx) (z : (⟨2, ![n, n]⟩ : Shape).Idx),
      (z 0).val = off + (u 0).val → (z 1).val = (u 1).val → a u = A z)
    (y : (⟨2, ![r, d]⟩ : Shape).Idx) (i : (⟨2, ![n, d]⟩ : Shape).Idx)
    (hi0 : (i 0).val = off + (y 0).val) (hi1 : (i 1).val = (y 1).val) :
    layerArr (actArr zf (prodArr a h1)) w2 b2 y = layerArr (actArr zf (prodArr A h1)) w2 b2 i := by
  obtain ⟨p, c, rfl⟩ : ∃ (p : Fin r) (c : Fin d), y = ix2 p c := ⟨y 0, y 1, eq_ix2 y⟩
  obtain ⟨p', c', rfl⟩ : ∃ (p' : Fin n) (c' : Fin d), i = ix2 p' c' := ⟨i 0, i 1, eq_ix2 i⟩
  obtain rfl : c' = c := Fin.ext hi1
  exact layerArr_rows _ _ w2 b2 p p' (fun k => actArr_rows zf _ _ p p'
    (fun k' => prodArr_rows a A h1 p p' (fun q => ha (ix2 p q) (ix2 p' q) hi0 rfl) k') k) c'

/-! ## The reference's composed term -/

/-- The host's spelling — `dot_general`s, the biases broadcast to one row and then over the rows, the rectifier
    against the zero constant broadcast from a scalar — is the same function. -/
theorem reference_gcn {n d : ℕ} (x : FVec Ideal ⟨2, ![n, d]⟩ .f32) (A : FVec Ideal ⟨2, ![n, n]⟩ .f32)
    (w1 w2 : FVec Ideal ⟨2, ![d, d]⟩ .f32) (b1 b2 : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![n, d]⟩ ![0, 1])
    (hz : (⟨0, ![]⟩ : Shape).BroadcastsInDim ⟨2, ![n, d]⟩ ![]) :
    Host.dotGeneral (DotDims.plain n n d) none A
        (addf (Host.dotGeneral (DotDims.plain n d d) none
            (maximumf (Host.dotGeneral (DotDims.plain n n d) none A
                (addf (Host.dotGeneral (DotDims.plain n d d) none x w1)
                  (broadcastInDim ⟨2, ![n, d]⟩ ![0, 1] h2 (broadcastInDim ⟨2, ![1, d]⟩ ![1] h1 b1))))
              (broadcastInDim ⟨2, ![n, d]⟩ ![] hz (constant (F := Ideal) ⟨0, ![]⟩ .f32 0x00000000#32)))
            w2)
          (broadcastInDim ⟨2, ![n, d]⟩ ![0, 1] h2 (broadcastInDim ⟨2, ![1, d]⟩ ![1] h1 b2)))
      = gcn x A w1 b1 w2 b2 := by
  rw [hlayer n d d none x w1 b1 h1 h2, hprod none A (layerArr x w1 b1), hact _ hz,
    hlayer n d d none (actArr zf (prodArr A (layerArr x w1 b1))) w2 b2 h1 h2, hprod none A _]
  rfl

end Gcn

end
-- ==== Proof.IValue.lean ====
/-
  The idealized kernel's result array as one function of its arguments.

  At the ideal values the first scratch holds h1 = x · W1ᵀ + b1 as a whole array; band t of the second scratch,
  computed from rows 400 t … 400 t + 399 of A, is those rows of h2 = max(A · h1, 0) · W2ᵀ + b2, because every step
  sends a row of its left operand to the same row of its result; so the second scratch ends the first pass
  holding h2, the block the second pass's point 25 + i writes back is rows 400 i … 400 i + 399 of A · h2, and these
  25 blocks cover the result array.
-/
import proofs.«124348_g2817498546214_cont_9to1_1806_5_alg».proof.Proof.IFrame
import proofs.«124348_g2817498546214_cont_9to1_1806_5_alg».proof.Proof.LibGcnDense
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx Cert.DenseRow Cert.RowBias Cert.ProdRows
open Cert.KernelIdeal.RegionValue (prodArr prodArr_apply block_prod)

local notation "𝕄" => MT nD τ sig Unit (Elt Ideal) ℕ (UR sig nD τ) ℕ

variable (m : (ℓ : Loc nD τ sig) → Buf (Elt Ideal) ℓ) (ρ : Dev nD → PrngReg)

/-! ## The arrays as the region finds them -/

abbrev aX (c : Dev nD) : S10000x128.Idx → EReal := V m c main_arg0
abbrev aA (c : Dev nD) : S10000x10000.Idx → EReal := V m c main_arg1
abbrev aW1 (c : Dev nD) : S128x128.Idx → EReal := V m c main_v0
abbrev aB1 (c : Dev nD) : S1x128.Idx → EReal := V m c main_v2
abbrev aW2 (c : Dev nD) : S128x128.Idx → EReal := V m c main_v1
abbrev aB2 (c : Dev nD) : S1x128.Idx → EReal := V m c main_v3

/-- The result: the network of the arrays the region finds (the weights transposed and the biases laid out as one
    row by @main's first four lines). -/
def G (c : Dev nD) : S10000x128.Idx → EReal :=
  Gcn.gcn (aX m c) (aA m c) (aW1 m c) (unrow (aB1 m c)) (aW2 m c) (unrow (aB2 m c))

/-! ## Blocks are rows of the arrays -/

/-- The printed index maps, decided over the grid: every window but the adjacency rows' and the result's is its
    whole array at every point; the adjacency window is at row block `t mod 25`; the result window at row block
    `t − 25` in the second pass (and 0 in the first). -/
theorem idx_facts : ∀ t : Fin cfg0.N,
    win0_0.index t (0 : Fin 2) = 0 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (if 25 ≤ t.val then t.val - 25 else 0) ∧ win0_6.index t (1 : Fin 2) = 0 :=
  (by decide +kernel : ∀ t : Fin grid0.N, _)

theorem blk0 (c : Dev nD) (t : Fin cfg0.N) : iblk m c 0 t = (V m c main_arg0 : S10000x128.Idx → EReal) := by
  obtain ⟨e00, e01, e10, e11, e20, e21, e30, e31, e40, e41, e50, e51, e60, e61⟩ := idx_facts t
  funext y
  show V m c main_arg0 (((cfg0.win 0).blk t).view.emb y) = V m c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem blk2 (c : Dev nD) (t : Fin cfg0.N) : iblk m c 2 t = (V m c main_v0 : S128x128.Idx → EReal) := by
  obtain ⟨e00, e01, e10, e11, e20, e21, e30, e31, e40, e41, e50, e51, e60, e61⟩ := idx_facts t
  funext y
  show V m c main_v0 (((cfg0.win 2).blk t).view.emb y) = V m c main_v0 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk3 (c : Dev nD) (t : Fin cfg0.N) : iblk m c 3 t = (V m c main_v2 : S1x128.Idx → EReal) := by
  obtain ⟨e00, e01, e10, e11, e20, e21, e30, e31, e40, e41, e50, e51, e60, e61⟩ := idx_facts t
  funext y
  show V m c main_v2 (((cfg0.win 3).blk t).view.emb y) = V m c main_v2 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem blk4 (c : Dev nD) (t : Fin cfg0.N) : iblk m c 4 t = (V m c main_v1 : S128x128.Idx → EReal) := by
  obtain ⟨e00, e01, e10, e11, e20, e21, e30, e31, e40, e41, e50, e51, e60, e61⟩ := idx_facts t
  funext y
  show V m c main_v1 (((cfg0.win 4).blk t).view.emb y) = V m c main_v1 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem blk5 (c : Dev nD) (t : Fin cfg0.N) : iblk m c 5 t = (V m c main_v3 : S1x128.Idx → EReal) := by
  obtain ⟨e00, e01, e10, e11, e20, e21, e30, e31, e40, e41, e50, e51, e60, e61⟩ := idx_facts t
  funext y
  show V m c main_v3 (((cfg0.win 5).blk t).view.emb y) = V m c main_v3 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The adjacency block at point `t` is the adjacency matrix read `400 (t mod 25)` rows down. -/
theorem blk1 (c : Dev nD) (t : Fin cfg0.N) (u : S400x10000.Idx) (z : S10000x10000.Idx)
    (hz0 : (z 0).val = 400 * (t.val % 25) + (u 0).val) (hz1 : (z 1).val = (u 1).val) :
    iblk m c 1 t u = (V m c main_arg1 : S10000x10000.Idx → EReal) z := by
  obtain ⟨e00, e01, e10, e11, e20, e21, e30, e31, e40, e41, e50, e51, e60, e61⟩ := idx_facts t
  show V m c main_arg1 (((cfg0.win 1).blk t).view.emb u) = V m c main_arg1 z
  refine congrArg _ (funext fun a => Fin.ext ?_)
  match a with
  | ⟨0, _⟩ => show win0_1.index t (0 : Fin 2) * 400 + 1 * (u 0).val = (z 0).val; omega
  | ⟨1, _⟩ => show win0_1.index t (1 : Fin 2) * 10000 + 1 * (u 1).val = (z 1).val; omega

/-! ## The scratch buffers' contents -/

/-- The first scratch holds h1. -/
theorem lin1_eq (c : Dev nD) : lin1 m c = layerArr (aX m c) (aW1 m c) (unrow (aB1 m c)) := by
  unfold lin1 k0_pay1
  rw [blk0 m c p0, blk2 m c p0, blk3 m c p0]
  exact Gcn.kernel_lin none _ _ _ _ _ _ _

/-- Band `t` is the rectified product of the adjacency block with h1, through the second dense layer. -/
theorem band_eq (c : Dev nD) (t : Fin cfg0.N) :
    band m c t = layerArr (actArr zf (prodArr (iblk m c 1 t : S400x10000.Idx → EReal) (lin1 m c))) (aW2 m c) (unrow (aB2 m c)) := by
  unfold band k0_pay2
  rw [blk4 m c t, blk5 m c t]
  exact Gcn.kernel_band none none _ _ _ _ _ _ _ _

/-- The 25 bands together are h2. -/
theorem hid2_eq (c : Dev nD) :
    hid2 m c = Gcn.hidden (aX m c) (aA m c) (aW1 m c) (unrow (aB1 m c)) (aW2 m c) (unrow (aB2 m c)) := by
  funext y
  have hy : (y (0 : Fin 2)).val < 10000 := (y (0 : Fin 2)).isLt
  obtain ⟨t, htv⟩ : ∃ t : Fin cfg0.N, t.val = (y (0 : Fin 2)).val / 400 := ⟨⟨(y (0 : Fin 2)).val / 400, by rw [N50]; omega⟩, rfl⟩
  have ht : t.val < 25 := by omega
  have h : 400 * t.val ≤ (y (0 : Fin 2)).val ∧ (y (0 : Fin 2)).val < 400 * t.val + 400 := by omega
  unfold hid2
  rw [fill_band m c 25 le_rfl t ht y h, band_eq m c t, lin1_eq m c]
  unfold Gcn.hidden
  refine Gcn.band_rows (iblk m c 1 t) (aA m c) _ (aW2 m c) (unrow (aB2 m c)) (400 * t.val)
    (fun u z h0 h1 => blk1 m c t u z (by rw [Nat.mod_eq_of_lt ht]; exact h0) h1) _ y ?_ ?_
  · show (y (0 : Fin 2)).val = 400 * t.val + ((y (0 : Fin 2)).val - 400 * t.val)
    omega
  · show (y (1 : Fin 2)).val = (y (1 : Fin 2)).val - 0
    omega

/-! ## What the second pass writes back, and the array after the run -/

/-- A point of the second pass writes back its block of rows of A · h2. -/
theorem flushed6_eq (c : Dev nD) (t : Fin cfg0.N) (hf : (cfg0.win 6).flush t = true) :
    (dats m 0 c).flushed 6 t = ((cfg0.win 6).blk t).view.read (Elt Ideal) (G m c) := by
  have h25 : 25 ≤ t.val := of_decide_eq_true ((flush6_iff t).symm.trans hf)
  have hN : t.val < 50 := lt_of_lt_of_eq t.isLt N50
  obtain ⟨e00, e01, e10, e11, e20, e21, e30, e31, e40, e41, e50, e51, e60, e61⟩ := idx_facts t
  rw [if_pos h25] at e60
  show (cfg0.win 6).cut (grid0.coords t) ((dats m 0 c).after 6 t) = _
  rw [after6, hid2_eq]
  funext y
  show k0_pay3 (iblk m c 1 t) (Gcn.hidden (aX m c) (aA m c) (aW1 m c) (unrow (aB1 m c)) (aW2 m c) (unrow (aB2 m c))) y
    = G m c (((cfg0.win 6).blk t).view.emb y)
  unfold k0_pay3 G Gcn.gcn
  refine block_prod none _ _ (aA m c) _ (400 * (t.val % 25)) y _ ?_ ?_ (fun u z h0 h1 => blk1 m c t u z h0 h1) (fun _ => rfl)
  · show win0_6.index t (0 : Fin 2) * 400 + 1 * (y 0).val = 400 * (t.val % 25) + (y 0).val
    omega
  · show win0_6.index t (1 : Fin 2) * 128 + 1 * (y 1).val = (y 1).val
    omega

/-- An index of the result array is in point `t`'s block iff each coordinate is in the block's range on its axis. -/
theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v4).slice (win0_6.rect t)).set ↔ _
  rw [View.set_slice_whole, Rect.mem_set_unit]
  exact Iff.rfl

/-- Row `r` of the result is in the block of the second pass's point `25 + r / 400`. -/
theorem cover6 (i : S10000x128.Idx) :
    ∃ t : Fin cfg0.N, (cfg0.win 6).flush t = true ∧ i ∈ ((cfg0.win 6).blk t).view.set := by
  have hi0 : (i (0 : Fin 2)).val < 10000 := (i (0 : Fin 2)).isLt
  have hi1 : (i (1 : Fin 2)).val < 128 := (i (1 : Fin 2)).isLt
  obtain ⟨t, htv⟩ : ∃ t : Fin cfg0.N, t.val = 25 + (i (0 : Fin 2)).val / 400 := ⟨⟨25 + (i (0 : Fin 2)).val / 400, by rw [N50]; omega⟩, rfl⟩
  obtain ⟨e00, e01, e10, e11, e20, e21, e30, e31, e40, e41, e50, e51, e60, e61⟩ := idx_facts t
  rw [if_pos (by omega)] at e60
  refine ⟨t, (flush6_iff t).trans (decide_eq_true (by omega)), ?_⟩
  rw [mem_blk6]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 128 ≤ (i 1).val ∧ (i 1).val < win0_6.index t (1 : Fin 2) * 128 + 128; omega

/-- The result array after the run. -/
theorem final6 (c : Dev nD) : (dats m 0 c).arrAt 6 cfg0.N = G m c :=
  (dats m 0 c).arrAt_eq_of_cover 6 (G m c) (fun t hf => flushed6_eq m c t hf) cover6

/-! ## The arrays @main's first four lines write, and the run -/

theorem V_v0 (c : Dev nD) : (V m c main_v0 : S128x128.Idx → EReal)
    = transpose S128x128 [1, 0] (m ((c : Thread nD τ).loc main_arg2)) transposes_S128x128_S128x128_1_0 := by
  dsimp only [V, hostOps0]; after_results <;> rfl
theorem V_v1 (c : Dev nD) : (V m c main_v1 : S128x128.Idx → EReal)
    = transpose S128x128 [1, 0] (m ((c : Thread nD τ).loc main_arg4)) transposes_S128x128_S128x128_1_0 := by
  dsimp only [V, hostOps0]; after_results <;> rfl
theorem V_v2 (c : Dev nD) : (V m c main_v2 : S1x128.Idx → EReal)
    = shapeCast S1x128 (m ((c : Thread nD τ).loc main_arg3)) shapeCasts_S128_S1x128 := by
  dsimp only [V, hostOps0]; after_results <;> rfl
theorem V_v3 (c : Dev nD) : (V m c main_v3 : S1x128.Idx → EReal)
    = shapeCast S1x128 (m ((c : Thread nD τ).loc main_arg5)) shapeCasts_S128_S1x128 := by
  dsimp only [V, hostOps0]; after_results <;> rfl

/-- The network of the argument arrays as launched. -/
def result (c : Dev nD) : S10000x128.Idx → EReal :=
  Gcn.gcn (m ((c : Thread nD τ).loc main_arg0)) (m ((c : Thread nD τ).loc main_arg1))
    (transpose S128x128 [1, 0] (m ((c : Thread nD τ).loc main_arg2)) transposes_S128x128_S128x128_1_0)
    (m ((c : Thread nD τ).loc main_arg3))
    (transpose S128x128 [1, 0] (m ((c : Thread nD τ).loc main_arg4)) transposes_S128x128_S128x128_1_0)
    (m ((c : Thread nD τ).loc main_arg5))

theorem G_eq (c : Dev nD) : G m c = result m c := by
  unfold G result aX aA aW1 aB1 aW2 aB2
  rw [V_main_arg0, V_main_arg1, V_v0, V_v1, V_v2, V_v3, unrow_cast, unrow_cast]

/-- The idealized kernel's run: the result array ends at the network of the arguments, the arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans ((final6 m c).trans (G_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Body

end
-- ==== Proof.RefValue.lean ====
/-
  The reference's composed term, at the ideal values, is the network of its argument arrays: its two dimension
  records are the plain matrix product's, its biases are broadcast to one row and then over the rows, and its
  rectifier compares with the zero constant broadcast from a scalar.
-/
import proofs.«124348_g2817498546214_cont_9to1_1806_5_alg».proof.Proof.Gen.ReferenceIdeal.Run
import proofs.«124348_g2817498546214_cont_9to1_1806_5_alg».proof.Proof.LibGcnDense

noncomputable section

namespace Cert.ReferenceIdeal.RefValue

open Idealize.ShloMosaic Idealize.ShloMosaic.TcCoe Idealize.SL.Sem
open Cert.ReferenceIdeal Cert.ReferenceIdeal.Facts₀

theorem result_eq (x : FVec Ideal S10000x128 .f32) (A : FVec Ideal S10000x10000 .f32) (w1 w2 : FVec Ideal S128x128 .f32)
    (b1 b2 : FVec Ideal S128 .f32) :
    Host.dotGeneral dot_S10000x10000_S10000x128_S10000x128_1_0_0_1_n_n none A
        (addf (Host.dotGeneral dot_S10000x128_S128x128_S10000x128_1_0_0_1_n_n none
            (maximumf (Host.dotGeneral dot_S10000x10000_S10000x128_S10000x128_1_0_0_1_n_n none A
                (addf (Host.dotGeneral dot_S10000x128_S128x128_S10000x128_1_0_0_1_n_n none x w1)
                  (broadcastInDim S10000x128 ![0, 1] bcast_S1x128_S10000x128_0_1 (broadcastInDim S1x128 ![1] bcast_S128_S1x128_1 b1))))
              (broadcastInDim S10000x128 ![] bcast_S_S10000x128 (constant (F := Ideal) S_ .f32 0x00000000#32)))
            w2)
          (broadcastInDim S10000x128 ![0, 1] bcast_S1x128_S10000x128_0_1 (broadcastInDim S1x128 ![1] bcast_S128_S1x128_1 b2)))
      = Gcn.gcn x A w1 b1 w2 b2 :=
  Gcn.reference_gcn (n := 10000) (d := 128) x A w1 w2 b1 b2 bcast_S128_S1x128_1 bcast_S1x128_S10000x128_0_1 bcast_S_S10000x128

end Cert.ReferenceIdeal.RefValue

end
-- ==== Proof.lean ====
/-
  A two-layer graph convolution out = A · (max(A · (x · W1ᵀ + b1), 0) · W2ᵀ + b2) over a dense 10000 × 10000 adjacency
  matrix A, computed by one kernel in two passes over the 25 blocks of 400 rows of A, against its plain reference.

  The first pass keeps h1 = x · W1ᵀ + b1 in one scratch buffer and fills a second, one band of 400 rows per point,
  with h2 = max(A · h1, 0) · W2ᵀ + b2; the second pass multiplies each block of rows of A by the whole of h2 and
  writes that block of the result back. The frames of both printed kernels come from one body obligation proved at
  any float instance: the invariant between points says the first scratch holds h1 and the rows of the second filled
  so far are h2's. At the ideal values every step sends a row of its left operand to the same row of its result, so
  bands and blocks computed from blocks of rows of A are the bands and blocks of the whole-array function; the
  reference's composed term is that same function, every sum taken in the same order, so no law of the extended
  reals beyond the definitions is needed and the precondition is not used. The idealization rewrote nothing.
-/
import proofs.«124348_g2817498546214_cont_9to1_1806_5_alg».proof.Defs
import proofs.«124348_g2817498546214_cont_9to1_1806_5_alg».proof.Proof.Gen.Kernel
import proofs.«124348_g2817498546214_cont_9to1_1806_5_alg».proof.Proof.Gen.KernelIdeal
import proofs.«124348_g2817498546214_cont_9to1_1806_5_alg».proof.Proof.Gen.ReferenceIdeal
import proofs.«124348_g2817498546214_cont_9to1_1806_5_alg».proof.Proof.Gen.Pre_finite_inputs
import proofs.«124348_g2817498546214_cont_9to1_1806_5_alg».proof.Proof.Gen.ReferenceIdeal.Run
import proofs.«124348_g2817498546214_cont_9to1_1806_5_alg».proof.Proof.BFrame
import proofs.«124348_g2817498546214_cont_9to1_1806_5_alg».proof.Proof.IValue
import proofs.«124348_g2817498546214_cont_9to1_1806_5_alg».proof.Proof.RefValue
import Idealize.ShloMosaic.Adequacy
import Idealize.ShloMosaic.Init

noncomputable section

namespace Cert.Proof

open Idealize.ShloMosaic Idealize.SL.Sem

/-- The printed kernel's frame, from the body obligation at the machine words. -/
theorem frame_k : Cert.frame_Kernel := fun m ρ _ => Cert.Kernel.Body.frame m ρ

/-- The idealized kernel's frame, from the same obligation at the ideal values. -/
theorem frame_ki : Cert.frame_KernelIdeal := fun m ρ _ => Cert.KernelIdeal.Body.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at the network of the arguments, which agree. -/
theorem algebraic : Cert.algebraic_KernelIdeal_ReferenceIdeal := by
  intro m ρ m' ρ' _ hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
